-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S16384x4096 : Shape := ⟨2, ![16384, 4096]⟩
abbrev S1 : Shape := ⟨1, ![1]⟩
abbrev S16384 : Shape := ⟨1, ![16384]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S16384x4096 : S_.BroadcastsInDim S16384x4096 (![] : Fin 0 → Fin S16384x4096.rank)
  reducesTo_S16384x4096_S_d0_1 : S16384x4096.ReducesTo [0, 1] S_
  bcast_S_S1 : S_.BroadcastsInDim S1 (![] : Fin 0 → Fin S1.rank)
  reducesTo_S1_S_d0 : S1.ReducesTo [0] S_
  bcast_S_S16384 : S_.BroadcastsInDim S16384 (![] : Fin 0 → Fin S16384.rank)
  reducesTo_S16384_S_d0 : S16384.ReducesTo [0] S_

variable [Facts]

def fn_part1 {F : FTy → Type} [FloatOps F] (main_v13 : IVec S_ 1) (main_v16 : IVec S16384 1) : IVec S_ 1 :=
  let main_c_5 : IVec S_ 1 := constantI S_ 1 1#1
  let main_v17 : IVec S_ 1 := (fun x v => Host.reduce IntOp.andi x v reducesTo_S16384_S_d0 h_S_) main_v16 main_c_5
  let main_v18 : IVec S_ 1 := andi main_v13 main_v17
  main_v18

def fn {F : FTy → Type} [FloatOps F] (main_arg0 : FVec F S4x2048x4096 .f32) (main_arg1 : FVec F S16384x4096 .f32) (main_arg2 : FVec F S1 .f32) (main_arg3 : FVec F S16384 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S16384x4096 .f32 := Host.absf main_arg1
  let main_cst_0 : FVec F S_ .f32 := constant S_ .f32 0x7F800000#32
  let main_v5 : FVec F S16384x4096 .f32 := broadcastInDim S16384x4096 ![] bcast_S_S16384x4096 main_cst_0
  let main_v6 : IVec S16384x4096 1 := cmpf .olt main_v4 main_v5
  let main_c_1 : IVec S_ 1 := constantI S_ 1 1#1
  let main_v7 : IVec S_ 1 := (fun x v => Host.reduce IntOp.andi x v reducesTo_S16384x4096_S_d0_1 h_S_) main_v6 main_c_1
  let main_v8 : IVec S_ 1 := andi main_v3 main_v7
  let main_v9 : FVec F S1 .f32 := Host.absf main_arg2
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_v14 : FVec F S16384 .f32 := Host.absf main_arg3
  let main_cst_4 : FVec F S_ .f32 := constant S_ .f32 0x7F800000#32
  let main_v15 : FVec F S16384 .f32 := broadcastInDim S16384 ![] bcast_S_S16384 main_cst_4
  let main_v16 : IVec S16384 1 := cmpf .olt main_v14 main_v15
  fn_part1 (F := F) main_v13 main_v16
-- ==== Kernel.lean ====
abbrev S4x2048x4096 : Shape := ⟨3, ![4, 2048, 4096]⟩
abbrev S16384x4096 : Shape := ⟨2, ![16384, 4096]⟩
abbrev S1 : Shape := ⟨1, ![1]⟩
abbrev S16384 : Shape := ⟨1, ![16384]⟩
abbrev S_ : Shape := ⟨0, ![]⟩
abbrev S8192x4096 : Shape := ⟨2, ![8192, 4096]⟩
abbrev S1x16384 : Shape := ⟨2, ![1, 16384]⟩
abbrev S1x1 : Shape := ⟨2, ![1, 1]⟩
abbrev S8192x16384 : Shape := ⟨2, ![8192, 16384]⟩
abbrev S1024x4096 : Shape := ⟨2, ![1024, 4096]⟩
abbrev S512x4096 : Shape := ⟨2, ![512, 4096]⟩
abbrev S1x512 : Shape := ⟨2, ![1, 512]⟩
abbrev S1024x512 : Shape := ⟨2, ![1024, 512]⟩
abbrev S4x2048x16384 : Shape := ⟨3, ![4, 2048, 16384]⟩

abbrev nBuf : Space → Nat
  | .hbm => 18
  | .vmem => 9
  | .smem => 0
  | _ => 0

abbrev bufTy : (tb : Table) → Fin (tcTables nBuf tb) → BufTy
  | .hbm, ⟨0, _⟩ => ⟨S4x2048x4096, .f32⟩
  | .hbm, ⟨1, _⟩ => ⟨S16384x4096, .f32⟩
  | .hbm, ⟨2, _⟩ => ⟨S1, .f32⟩
  | .hbm, ⟨3, _⟩ => ⟨S16384, .f32⟩
  | .hbm, ⟨4, _⟩ => ⟨S16384x4096, .f32⟩
  | .hbm, ⟨5, _⟩ => ⟨S_, .f32⟩
  | .hbm, ⟨6, _⟩ => ⟨S16384x4096, .f32⟩
  | .hbm, ⟨7, _⟩ => ⟨S16384x4096, .i1⟩
  | .hbm, ⟨8, _⟩ => ⟨S_, .f32⟩
  | .hbm, ⟨9, _⟩ => ⟨S16384x4096, .f32⟩
  | .hbm, ⟨10, _⟩ => ⟨S16384x4096, .f32⟩
  | .hbm, ⟨11, _⟩ => ⟨S16384x4096, .bf16⟩
  | .hbm, ⟨12, _⟩ => ⟨S4x2048x4096, .bf16⟩
  | .hbm, ⟨13, _⟩ => ⟨S8192x4096, .bf16⟩
  | .hbm, ⟨14, _⟩ => ⟨S1x16384, .f32⟩
  | .hbm, ⟨15, _⟩ => ⟨S1x1, .f32⟩
  | .hbm, ⟨16, _⟩ => ⟨S8192x16384, .f32⟩
  | .hbm, ⟨17, _⟩ => ⟨S4x2048x16384, .f32⟩
  | .local _ .vmem, ⟨0, _⟩ => ⟨S1024x4096, .bf16⟩
  | .local _ .vmem, ⟨1, _⟩ => ⟨S1024x4096, .bf16⟩
  | .local _ .vmem, ⟨2, _⟩ => ⟨S512x4096, .bf16⟩
  | .local _ .vmem, ⟨3, _⟩ => ⟨S512x4096, .bf16⟩
  | .local _ .vmem, ⟨4, _⟩ => ⟨S1x512, .f32⟩
  | .local _ .vmem, ⟨5, _⟩ => ⟨S1x512, .f32⟩
  | .local _ .vmem, ⟨6, _⟩ => ⟨S1x1, .f32⟩
  | .local _ .vmem, ⟨7, _⟩ => ⟨S1024x512, .f32⟩
  | .local _ .vmem, ⟨8, _⟩ => ⟨S1024x512, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bcast_S_S16384x4096 : S_.BroadcastsInDim S16384x4096 (![] : Fin 0 → Fin S16384x4096.rank)
  bitsLt_bf16_f32 : FTy.bits .bf16 < FTy.bits .f32
  shapeCasts_S4x2048x4096_S8192x4096 : S4x2048x4096.ShapeCasts S8192x4096
  shapeCasts_S16384_S1x16384 : S16384.ShapeCasts S1x16384
  shapeCasts_S1_S1x1 : S1.ShapeCasts S1x1
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1024x512 : S1x1.Broadcasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  shapeCasts_S8192x16384_S4x2048x16384 : S8192x16384.ShapeCasts S4x2048x16384
  dot_S1024x4096_S512x4096_S1024x512_1_1_0_0_n_n_wf : DotDims.WF S1024x4096 S512x4096 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S8192x4096.size a
  hwx0_0 : ∀ i : grid0.Coords, EltTy.bits .bf16 = 32 ∨ (Rect.block (s := S8192x4096) S1024x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S16384x4096.size a
  hwx0_1 : ∀ i : grid0.Coords, EltTy.bits .bf16 = 32 ∨ (Rect.block (s := S16384x4096) S512x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x16384.size a
  hwx0_2 : ∀ i : grid0.Coords, EltTy.bits .f32 = 32 ∨ (Rect.block (s := S1x16384) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S8192x16384.size a
  hwx0_4 : ∀ i : grid0.Coords, EltTy.bits .f32 = 32 ∨ (Rect.block (s := S8192x16384) S1024x512.size (cc0_transform_4 i) (hinb0_4 i)).WholeWords (EltTy.packing .f32)

variable [Facts₀]

def dot_S1024x4096_S512x4096_S1024x512_1_1_0_0_n_n : DotDims S1024x4096 S512x4096 S1024x512 where
  lhsContracting := [1]
  rhsContracting := [1]
  lhsNonContracting := [0]
  rhsNonContracting := [0]
  lhsBatch := []
  rhsBatch := []
  wf := dot_S1024x4096_S512x4096_S1024x512_1_1_0_0_n_n_wf

abbrev win0_0 : Pipeline.Window sig grid0 :=
  Pipeline.Window.ofSpec (Memref.whole main_v7) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1024x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S16384x4096 : Shape := ⟨2, ![16384, 4096]⟩
abbrev S1 : Shape := ⟨1, ![1]⟩
abbrev S16384 : Shape := ⟨1, ![16384]⟩
abbrev S_ : Shape := ⟨0, ![]⟩
abbrev S1x1 : Shape := ⟨2, ![1, 1]⟩
abbrev S4x2048x16384 : Shape := ⟨3, ![4, 2048, 16384]⟩
abbrev S1x1x16384 : Shape := ⟨3, ![1, 1, 16384]⟩

abbrev nBuf : Space → Nat
  | .hbm => 18
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S16384x4096, .f32⟩
  | .hbm, ⟨2, _⟩ => ⟨S1, .f32⟩
  | .hbm, ⟨3, _⟩ => ⟨S16384, .f32⟩
  | .hbm, ⟨4, _⟩ => ⟨S16384x4096, .f32⟩
  | .hbm, ⟨5, _⟩ => ⟨S_, .f32⟩
  | .hbm, ⟨6, _⟩ => ⟨S16384x4096, .f32⟩
  | .hbm, ⟨7, _⟩ => ⟨S16384x4096, .i1⟩
  | .hbm, ⟨8, _⟩ => ⟨S_, .f32⟩
  | .hbm, ⟨9, _⟩ => ⟨S16384x4096, .f32⟩
  | .hbm, ⟨10, _⟩ => ⟨S16384x4096, .f32⟩
  | .hbm, ⟨11, _⟩ => ⟨S1x1, .f32⟩
  | .hbm, ⟨12, _⟩ => ⟨S16384x4096, .f32⟩
  | .hbm, ⟨13, _⟩ => ⟨S16384x4096, .f32⟩
  | .hbm, ⟨14, _⟩ => ⟨S4x2048x16384, .f32⟩
  | .hbm, ⟨15, _⟩ => ⟨S1x1x16384, .f32⟩
  | .hbm, ⟨16, _⟩ => ⟨S4x2048x16384, .f32⟩
  | .hbm, ⟨17, _⟩ => ⟨S4x2048x16384, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]

class Facts₀ : Prop where
  bcast_S_S16384x4096 : S_.BroadcastsInDim S16384x4096 (![] : Fin 0 → Fin S16384x4096.rank)
  bcast_S1_S1x1_1 : S1.BroadcastsInDim S1x1 (![1] : Fin 1 → Fin S1x1.rank)
  bcast_S1x1_S16384x4096_0_1 : S1x1.BroadcastsInDim S16384x4096 (![0, 1] : Fin 2 → Fin S16384x4096.rank)
  bcast_S16384_S1x1x16384_2 : S16384.BroadcastsInDim S1x1x16384 (![2] : Fin 1 → Fin S1x1x16384.rank)
  bcast_S1x1x16384_S4x2048x16384_0_1_2 : S1x1x16384.BroadcastsInDim S4x2048x16384 (![0, 1, 2] : Fin 3 → Fin S4x2048x16384.rank)
  dot_S4x2048x4096_S16384x4096_S4x2048x16384_2_1_01_0_n_n_wf : DotDims.WF S4x2048x4096 S16384x4096 S4x2048x16384 [2] [1] [0, 1] [0] [] []

variable [Facts₀]

def dot_S4x2048x4096_S16384x4096_S4x2048x16384_2_1_01_0_n_n : DotDims S4x2048x4096 S16384x4096 S4x2048x16384 where
  lhsContracting := [2]
  rhsContracting := [1]
  lhsNonContracting := [0, 1]
  rhsNonContracting := [0]
  lhsBatch := []
  rhsBatch := []
  wf := dot_S4x2048x4096_S16384x4096_S4x2048x16384_2_1_01_0_n_n_wf

class Facts : Prop extends Facts₀ where

variable [Facts]
-- ==== Proof.LibDotT.lean ====
/-
  A product of a rows-by-depth array with the TRANSPOSE of a columns-by-depth array, read at an index.

  For dimension numbers that contract the second axis of both operands (the `M × K` by `N × K` product `x · wᵀ`,
  what a linear layer with weights stored output-major computes), the sum over the contraction index that both the
  kernel's matrix unit and the host's `dot_general` denote on the extended reals is `Σ_k l (a, k) · r (b, k)`.
-/
import Idealize.ShloMosaic.PureOps.Ideal.Laws
import Idealize.ShloMosaic.Lib.ValueIdx

noncomputable section

open scoped BigOperators

namespace Cert.LibDotT

open Idealize.ShloMosaic Idealize.ShloMosaic.ValueIdx

variable {M K N : ℕ}

/-- The contraction sum of `x · wᵀ` at output index `(a, b)` is the sum over `k : Fin K` of `l (a, k) · r (b, k)`.
    The dimension numbers are given by their six lists, as a printed record states them. -/
theorem sum_eq (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (l : (⟨2, ![M, K]⟩ : Shape).Idx → EReal) (r : (⟨2, ![N, K]⟩ : Shape).Idx → EReal) (a : Fin M) (b : Fin N) :
    ∑ k : D.contr.Idx, l (D.lhsIdx (ix2 a b) k) * r (D.rhsIdx (ix2 a b) k) = ∑ k : Fin K, l (ix2 a k) * r (ix2 b k) := by
  obtain ⟨lc, rc, ln, rn, lb, rb, wf⟩ := D
  dsimp only at h1 h2 h3 h4 h5 h6
  subst h1 h2 h3 h4 h5 h6
  have hr : (DotDims.mk (sl := ⟨2, ![M, K]⟩) (sr := ⟨2, ![N, K]⟩) (so := ⟨2, ![M, N]⟩) [1] [1] [0] [0] [] [] wf).contr.rank = 1 := rfl
  have hs : (DotDims.mk (sl := ⟨2, ![M, K]⟩) (sr := ⟨2, ![N, K]⟩) (so := ⟨2, ![M, N]⟩) [1] [1] [0] [0] [] [] wf).contr.size ⟨0, by omega⟩ = K := rfl
  rw [← Equiv.sum_comp (contrEquiv1 _ K hr hs).symm]
  refine Finset.sum_congr rfl fun k _ => ?_
  have el : (DotDims.mk (sl := ⟨2, ![M, K]⟩) (sr := ⟨2, ![N, K]⟩) (so := ⟨2, ![M, N]⟩) [1] [1] [0] [0] [] [] wf).lhsIdx (ix2 a b) ((contrEquiv1 _ K hr hs).symm k) = ix2 a k := by
    funext d
    match d with
    | ⟨0, _⟩ => rfl
    | ⟨1, _⟩ =>
      refine Fin.ext ?_
      exact (DotDims.lhsIdx_val_of_single _ (cl := 1) rfl (ix2 a b) _).trans (contrEquiv1_symm_val _ K hr hs k)
  have er : (DotDims.mk (sl := ⟨2, ![M, K]⟩) (sr := ⟨2, ![N, K]⟩) (so := ⟨2, ![M, N]⟩) [1] [1] [0] [0] [] [] wf).rhsIdx (ix2 a b) ((contrEquiv1 _ K hr hs).symm k) = ix2 b k := by
    funext d
    match d with
    | ⟨0, _⟩ => rfl
    | ⟨1, _⟩ =>
      refine Fin.ext ?_
      exact (DotDims.rhsIdx_val_of_single _ (cr := 1) rfl (ix2 a b) _).trans (contrEquiv1_symm_val _ K hr hs k)
  rw [el, er]

end Cert.LibDotT

end
-- ==== Proof.KernelBlock.lean ====
/-
  What the kernel body stores, read at one entry.

  At a grid point the body holds a block of 1024 activation rows, a block of 512 weight rows (both 4096 deep), the
  512 bias entries under those weight rows and the one-entry scale. It multiplies the activations by the TRANSPOSE of the
  weight block on the matrix unit, from a zero accumulator, scales the result and adds the bias row to every activation
  row. Entry `(p, q)` of what it stores is therefore `(Σ_k x[p,k] · w[q,k]) · s + b[q]`.
-/
import proofs.«108005_j91113436217710_2_alg».proof.Proof.Gen.KernelIdeal.Skeleton
import proofs.«108005_j91113436217710_2_alg».proof.Proof.LibDotT
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.BinaryLinear

open Idealize.ShloMosaic Idealize.ShloMosaic.ValueIdx Cert.KernelIdeal Cert.KernelIdeal.Gen

/-- A one-entry `[1, 1]` array broadcast to `[a, b]` reads that entry everywhere. -/
theorem broadcastTo_11_ab_apply {α : Type} {a b : ℕ} (v : (⟨2, ![1, 1]⟩ : Shape).Idx → α)
    (h : (⟨2, ![1, 1]⟩ : Shape).Broadcasts ⟨2, ![a, b]⟩) (p : Fin a) (q : Fin b) :
    broadcastTo ⟨2, ![a, b]⟩ v h (ix2 p q) = v (ix2 (0 : Fin 1) (0 : Fin 1)) := by
  refine broadcastTo_apply v h (ix2 p q) (ix2 (0 : Fin 1) (0 : Fin 1)) fun ax => ?_
  match ax with
  | ⟨0, _⟩ => rfl
  | ⟨1, _⟩ => rfl

/-- The stored block at `(p, q)`: the product of activation row `p` with weight row `q`, scaled, plus bias entry `q`. -/
theorem payload_apply (x0 : Vec Ideal S1024x4096 .bf16) (x1 : Vec Ideal S512x4096 .bf16) (x3 : Vec Ideal S1x1 .f32)
    (x2 : Vec Ideal S1x512 .f32) (p : Fin 1024) (q : Fin 512) :
    k0_pay1 (F := Ideal) x0 x1 x3 x2 (ix2 p q)
      = (∑ k : Fin 4096, x0 (ix2 p k) * x1 (ix2 q k)) * x3 (ix2 (0 : Fin 1) (0 : Fin 1)) + x2 (ix2 (0 : Fin 1) q) := by
  unfold k0_pay1
  rw [addf_apply, mulf_apply, shapeCast_self, shapeCast_self, shapeCast_self, shapeCast_self,
    broadcastTo_11_ab_apply, broadcastTo_1b_ab_apply]
  simp only [matmul]
  rw [Ideal.matmul_constant_zero_apply, Cert.LibDotT.sum_eq _ rfl rfl rfl rfl rfl rfl]

end Cert.BinaryLinear

end
-- ==== Proof.LibReal.lean ====
/-
  Extended reals that are real numbers. On the extended reals the sum and the product are commutative and associative,
  but the product distributes over the sum only away from the infinities. The predicate `IsR a` says `a` is (the image of)
  a real number; it is closed under every operation met here — sums, finite sums, products, differences, the guarded and
  the plain division by a nonzero real, the logistic function and the hyperbolic tangent — and under it the distributive
  law holds.
-/
import Idealize.ShloMosaic.PureOps.Ideal

noncomputable section

namespace Cert.LibReal

open Idealize.ShloMosaic

/-- `a` is a real number. -/
def IsR (a : EReal) : Prop := ∃ r : ℝ, a = (r : EReal)

theorem IsR.coe (r : ℝ) : IsR (r : EReal) := ⟨r, rfl⟩
theorem IsR.zero : IsR 0 := ⟨0, rfl⟩
theorem IsR.one : IsR 1 := ⟨1, rfl⟩

theorem IsR.add {a b : EReal} (ha : IsR a) (hb : IsR b) : IsR (a + b) := by
  obtain ⟨r, rfl⟩ := ha; obtain ⟨s, rfl⟩ := hb; exact ⟨r + s, (EReal.coe_add r s).symm⟩

theorem IsR.mul {a b : EReal} (ha : IsR a) (hb : IsR b) : IsR (a * b) := by
  obtain ⟨r, rfl⟩ := ha; obtain ⟨s, rfl⟩ := hb; exact ⟨r * s, (EReal.coe_mul r s).symm⟩

theorem IsR.sub {a b : EReal} (ha : IsR a) (hb : IsR b) : IsR (a - b) := by
  obtain ⟨r, rfl⟩ := ha; obtain ⟨s, rfl⟩ := hb; exact ⟨r - s, (EReal.coe_sub r s).symm⟩

/-- A finite sum of real numbers is a real number. -/
theorem IsR.sum {ι : Type*} (s : Finset ι) (f : ι → EReal) (h : ∀ i ∈ s, IsR (f i)) : IsR (∑ i ∈ s, f i) := by
  classical
  induction s using Finset.induction_on with
  | empty => rw [Finset.sum_empty]; exact IsR.zero
  | insert a s ha ih =>
    rw [Finset.sum_insert ha]
    exact (h a (Finset.mem_insert_self a s)).add (ih fun i hi => h i (Finset.mem_insert_of_mem hi))

/-- The quotient of a real number by a nonzero real number. -/
theorem IsR.div {a b : EReal} (ha : IsR a) (hb : IsR b) (hb0 : b ≠ 0) : IsR (Ideal.div a b) := by
  obtain ⟨s, rfl⟩ := hb
  have hs : s ≠ 0 := fun e => hb0 (by rw [e]; rfl)
  rw [Ideal.div_coe hs]
  exact ha.mul (IsR.coe _)

theorem IsR.logistic {a : EReal} (ha : IsR a) : IsR (Ideal.logistic a) := by
  obtain ⟨r, rfl⟩ := ha; exact ⟨_, Ideal.logistic_coe r⟩

theorem IsR.tanh {a : EReal} (ha : IsR a) : IsR (Ideal.tanh a) := by
  obtain ⟨r, rfl⟩ := ha; exact ⟨_, Ideal.tanh_coe r⟩

/-- Among real numbers the product distributes over the sum. -/
theorem add_mul_of_isR {a b c : EReal} (ha : IsR a) (hb : IsR b) (hc : IsR c) : (a + b) * c = a * c + b * c := by
  obtain ⟨r, rfl⟩ := ha; obtain ⟨s, rfl⟩ := hb; obtain ⟨t, rfl⟩ := hc
  rw [← EReal.coe_add, ← EReal.coe_mul, ← EReal.coe_mul, ← EReal.coe_mul, ← EReal.coe_add, add_mul]

end Cert.LibReal

end
-- ==== Proof.Spec.lean ====
/-
  The binary linear layer as one function of its four arrays, and the law that joins its two spellings.

  With activations `x` of shape [8192, 4096], a sign-binarised weight `w` of shape [16384, 4096] (every entry -1, 0 or 1,
  zeros then replaced by 1), a one-entry scale `s` and a bias row `b` of length 16384, the layer's value at row `r`
  and output `o` is `(Σ_k x[r,k] · w[o,k]) · s + b[o]`. One program scales the product's result; the other scales the
  weight before the product, `Σ_k x[r,k] · (w[o,k] · s) + b[o]`. The two agree by distributivity of the product over a
  finite sum, which on the extended reals holds among real numbers only: so the entries must be real, and the
  binarised weight is real whatever it is computed from, because the sign of any extended real is -1, 0 or 1.
-/
import Idealize.ShloMosaic.PureOps.Ideal
import Idealize.ShloMosaic.PureOps.Ideal.Laws
import Idealize.ShloMosaic.Lib.ValueIdx
import proofs.«108005_j91113436217710_2_alg».proof.Proof.LibReal

noncomputable section

open scoped BigOperators

namespace Cert.BinaryLinear

open Idealize.ShloMosaic Idealize.ShloMosaic.ValueIdx Cert.LibReal

/-- The layer with the scale applied to the product's result: at `(r, o)`, `(Σ_k X[r,k] · W[o,k]) · S[0,0] + B[0,o]`.
    The bias is a row `[1, 16384]` and the scale a `[1, 1]` array. -/
def layer (X : (⟨2, ![8192, 4096]⟩ : Shape).Idx → EReal) (W : (⟨2, ![16384, 4096]⟩ : Shape).Idx → EReal)
    (B : (⟨2, ![1, 16384]⟩ : Shape).Idx → EReal) (S : (⟨2, ![1, 1]⟩ : Shape).Idx → EReal) :
    (⟨2, ![8192, 16384]⟩ : Shape).Idx → EReal :=
  fun i => (∑ k : Fin 4096, X (ix2 (i 0) k) * W (ix2 (i 1) k)) * S (ix2 (0 : Fin 1) (0 : Fin 1)) + B (ix2 (0 : Fin 1) (i 1))

/-- Among real numbers a common right factor moves inside a finite sum of products:
    `(Σ_k f k · g k) · s = Σ_k f k · (g k · s)`. -/
theorem sum_mul_scale {ι : Type*} (t : Finset ι) (f g : ι → EReal) (s : EReal)
    (hf : ∀ k, IsR (f k)) (hg : ∀ k, IsR (g k)) (hs : IsR s) :
    (∑ k ∈ t, f k * g k) * s = ∑ k ∈ t, f k * (g k * s) := by
  classical
  induction t using Finset.induction_on with
  | empty => rw [Finset.sum_empty, Finset.sum_empty, zero_mul]
  | insert a t ha ih =>
    rw [Finset.sum_insert ha, Finset.sum_insert ha,
      add_mul_of_isR ((hf a).mul (hg a)) (IsR.sum _ _ fun i _ => (hf i).mul (hg i)) hs, ih, mul_assoc]

/-- The sign of any extended real — of an infinity too — is one of the real numbers -1, 0, 1. -/
theorem isR_sign (a : EReal) : IsR (Ideal.sign a) := by
  induction a using EReal.rec with
  | bot => exact ⟨-1, by rw [Ideal.sign_bot]; rfl⟩
  | coe r => exact ⟨_, rfl⟩
  | top => exact ⟨1, by rw [Ideal.sign_top]; rfl⟩

/-- A choice between two real numbers is a real number. -/
theorem isR_select (c : BitVec 1) {a b : EReal} (ha : IsR a) (hb : IsR b) : IsR (Scalar.select c a b) := by
  unfold Scalar.select
  split
  · exact ha
  · exact hb

/-- The pattern of `1.0` denotes the real number 1. -/
theorem one_eq : Ideal.ofBits .f32 0x3F800000#32 = ((1 : ℝ) : EReal) := by
  simp [Ideal.ofBits, Ideal.ieee, -EReal.coe_mul]; norm_num

theorem isR_one : IsR (Ideal.ofBits .f32 0x3F800000#32) := ⟨1, one_eq⟩

end Cert.BinaryLinear

end
-- ==== Proof.KernelArray.lean ====
/-
  From blocks to the whole array.

  The grid has 8 × 32 points. At point `(i, j)` the kernel reads activation rows `1024 i … 1024 i + 1023`, weight rows
  `512 j … 512 j + 511` with their 512 bias entries, and the scale, and writes block `(i, j)` of the [8192, 16384] result.
  Each written block is the corresponding block of ONE function of the four arrays the region finds (`layer`), and the
  256 blocks tile the result; so after the region the result array is that function.
-/
import proofs.«108005_j91113436217710_2_alg».proof.Proof.Gen.KernelIdeal.Frame
import proofs.«108005_j91113436217710_2_alg».proof.Proof.KernelBlock
import proofs.«108005_j91113436217710_2_alg».proof.Proof.Spec
import Idealize.ShloMosaic.Lib.Pipeline.Value

set_option maxRecDepth 16384

noncomputable section

open scoped BigOperators

namespace Cert.BinaryLinear

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ)

theorem origin_zero : (![0, 0] : Fin 2 → Nat) = fun _ => 0 := funext fun a => by fin_cases a <;> rfl

/-- The index maps, over the grid: the activation block follows the output block's row index, the weight block and
    the bias block its column index, the scale's block never moves; and the output's block indices stay in range. -/
theorem block_index : ∀ t : Fin cfg0.N,
    win0_0.index t (0 : Fin 2) = win0_4.index t (0 : Fin 2) ∧ win0_0.index t (1 : Fin 2) = 0
    ∧ win0_1.index t (0 : Fin 2) = win0_4.index t (1 : Fin 2) ∧ win0_1.index t (1 : Fin 2) = 0
    ∧ win0_2.index t (0 : Fin 2) = 0 ∧ win0_2.index t (1 : Fin 2) = win0_4.index t (1 : Fin 2)
    ∧ win0_3.index t (0 : Fin 2) = 0 ∧ win0_3.index t (1 : Fin 2) = 0
    ∧ win0_4.index t (0 : Fin 2) ≤ 7 ∧ win0_4.index t (1 : Fin 2) ≤ 31 :=
  (by decide +kernel : ∀ t : Fin grid0.N, _)

/-- Every block of the result is some point's. -/
theorem block_onto : ∀ (q0 : Fin 8) (q1 : Fin 32), ∃ t : Fin cfg0.N, win0_4.index t = ![q0.val, q1.val] :=
  (by decide +kernel : ∀ (q0 : Fin 8) (q1 : Fin 32), ∃ t : Fin grid0.N, win0_4.index t = ![q0.val, q1.val])

/-- One stored block against the whole-array function: if the body's four blocks are read from the arrays `X W B S`
    at the rows and columns that entry `i` of the result names, the stored entry `(p, q)` is `layer X W B S i`. -/
theorem block_eq (X : (⟨2, ![8192, 4096]⟩ : Shape).Idx → EReal) (W : (⟨2, ![16384, 4096]⟩ : Shape).Idx → EReal)
    (B : (⟨2, ![1, 16384]⟩ : Shape).Idx → EReal) (S : (⟨2, ![1, 1]⟩ : Shape).Idx → EReal)
    (x0 : Vec Ideal S1024x4096 .bf16) (x1 : Vec Ideal S512x4096 .bf16) (x3 : Vec Ideal S1x1 .f32) (x2 : Vec Ideal S1x512 .f32)
    (p : Fin 1024) (q : Fin 512) (i : S8192x16384.Idx)
    (h0 : ∀ k : Fin 4096, x0 (ix2 p k) = X (ix2 (i 0) k))
    (h1 : ∀ k : Fin 4096, x1 (ix2 q k) = W (ix2 (i 1) k))
    (h2 : x2 (ix2 (0 : Fin 1) q) = B (ix2 (0 : Fin 1) (i 1)))
    (h3 : x3 (ix2 (0 : Fin 1) (0 : Fin 1)) = S (ix2 (0 : Fin 1) (0 : Fin 1))) :
    k0_pay1 (F := Ideal) x0 x1 x3 x2 (ix2 p q) = layer X W B S i := by
  rw [payload_apply]
  unfold layer
  rw [h2, h3]
  exact congrArg (fun z => z * S (ix2 (0 : Fin 1) (0 : Fin 1)) + B (ix2 (0 : Fin 1) (i 1)))
    (Finset.sum_congr rfl fun k _ => by rw [h0 k, h1 k])

/-- What point `t` writes back is block `t` of `layer` of the four arrays as the region finds them. -/
theorem flushed_eq (c : Dev nD) (t : Fin cfg0.N) :
    (dats m 0 c).flushed 4 t = ((cfg0.win 4).blk t).view.read (Elt Ideal)
      (layer (V m c main_v7) (V m c main_v5) (V m c main_v8) (V m c main_v9)) := by
  show (cfg0.win 4).cut (grid0.coords t) ((dats m 0 c).after 4 t) = _
  rw [after0_4]
  unfold out0_4
  rw [View.canon_unit_zero origin_zero]
  simp only [View.ld_unit_zero (S := S1024x4096) origin_zero, View.ld_unit_zero (S := S512x4096) origin_zero,
    View.ld_unit_zero (S := S1x1) origin_zero, View.ld_unit_zero (S := S1x512) origin_zero]
  obtain ⟨e0, e1, e2, e3, e4, e5, e6, e7, e8, e9⟩ := block_index t
  funext j
  show k0_pay1 (F := Ideal) (iblk m c 0 t) (iblk m c 1 t) (iblk m c 3 t) (iblk m c 2 t) j
    = layer (V m c main_v7) (V m c main_v5) (V m c main_v8) (V m c main_v9) (((cfg0.win 4).blk t).view.emb j)
  refine (congrArg (k0_pay1 (F := Ideal) (iblk m c 0 t) (iblk m c 1 t) (iblk m c 3 t) (iblk m c 2 t))
    (eq_ix2 (n0 := 1024) (n1 := 512) j)).trans ?_
  refine block_eq (V m c main_v7) (V m c main_v5) (V m c main_v8) (V m c main_v9)
    (iblk m c 0 t) (iblk m c 1 t) (iblk m c 3 t) (iblk m c 2 t) (j 0) (j 1) (((cfg0.win 4).blk t).view.emb j) ?_ ?_ ?_ ?_
  · intro k
    show V m c main_v7 (((cfg0.win 0).blk t).view.emb (ix2 (j 0) k)) = V m c main_v7 (ix2 ((((cfg0.win 4).blk t).view.emb j) 0) k)
    refine congrArg (V m c main_v7) (funext fun a => Fin.ext ?_)
    match a with
    | ⟨0, _⟩ => show win0_0.index t (0 : Fin 2) * 1024 + 1 * (j 0).val = win0_4.index t (0 : Fin 2) * 1024 + 1 * (j 0).val; omega
    | ⟨1, _⟩ => show win0_0.index t (1 : Fin 2) * 4096 + 1 * k.val = k.val; omega
  · intro k
    show V m c main_v5 (((cfg0.win 1).blk t).view.emb (ix2 (j 1) k)) = V m c main_v5 (ix2 ((((cfg0.win 4).blk t).view.emb j) 1) k)
    refine congrArg (V m c main_v5) (funext fun a => Fin.ext ?_)
    match a with
    | ⟨0, _⟩ => show win0_1.index t (0 : Fin 2) * 512 + 1 * (j 1).val = win0_4.index t (1 : Fin 2) * 512 + 1 * (j 1).val; omega
    | ⟨1, _⟩ => show win0_1.index t (1 : Fin 2) * 4096 + 1 * k.val = k.val; omega
  · show V m c main_v8 (((cfg0.win 2).blk t).view.emb (ix2 (0 : Fin 1) (j 1))) = V m c main_v8 (ix2 (0 : Fin 1) ((((cfg0.win 4).blk t).view.emb j) 1))
    refine congrArg (V m c main_v8) (funext fun a => Fin.ext ?_)
    match a with
    | ⟨0, _⟩ => show win0_2.index t (0 : Fin 2) * 1 + 1 * 0 = 0; omega
    | ⟨1, _⟩ => show win0_2.index t (1 : Fin 2) * 512 + 1 * (j 1).val = win0_4.index t (1 : Fin 2) * 512 + 1 * (j 1).val; omega
  · show V m c main_v9 (((cfg0.win 3).blk t).view.emb (ix2 (0 : Fin 1) (0 : Fin 1))) = V m c main_v9 (ix2 (0 : Fin 1) (0 : Fin 1))
    refine congrArg (V m c main_v9) (funext fun a => Fin.ext ?_)
    match a with
    | ⟨0, _⟩ => show win0_3.index t (0 : Fin 2) * 1 + 1 * 0 = 0; omega
    | ⟨1, _⟩ => show win0_3.index t (1 : Fin 2) * 1 + 1 * 0 = 0; omega

/-- An index of the result is in point `t`'s block iff each coordinate is in the block's range on its axis. -/
theorem mem_block (t : Fin cfg0.N) (i : S8192x16384.Idx) :
    i ∈ ((cfg0.win 4).blk t).view.set ↔ ∀ a : Fin 2, win0_4.index t a * S1024x512.size a ≤ (i a).val
      ∧ (i a).val < win0_4.index t a * S1024x512.size a + S1024x512.size a := by
  show i ∈ ((View.whole main_v10).slice (win0_4.rect t)).set ↔ _
  rw [View.set_slice_whole, Rect.mem_set_unit]
  exact Iff.rfl

/-- Every entry `(r, o)` of the result lies in a written block: that of the point with block indices `(r / 1024, o / 512)`. -/
theorem covered (i : S8192x16384.Idx) :
    ∃ t : Fin cfg0.N, (cfg0.win 4).flush t = true ∧ i ∈ ((cfg0.win 4).blk t).view.set := by
  have hi0 : (i 0).val < 8192 := (i 0).isLt
  have hi1 : (i 1).val < 16384 := (i 1).isLt
  obtain ⟨t, ht⟩ := block_onto ⟨(i 0).val / 1024, by omega⟩ ⟨(i 1).val / 512, by omega⟩
  have q0 : win0_4.index t (0 : Fin 2) = (i 0).val / 1024 := congrFun ht 0
  have q1 : win0_4.index t (1 : Fin 2) = (i 1).val / 512 := congrFun ht 1
  refine ⟨t, flush0_4 t, ?_⟩
  rw [mem_block]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 512 ≤ (i 1).val ∧ (i 1).val < win0_4.index t (1 : Fin 2) * 512 + 512; omega

/-- The result array after the region: `layer` of the four arrays the region found. -/
theorem result_array (c : Dev nD) :
    (dats m 0 c).arrAt 4 cfg0.N = layer (V m c main_v7) (V m c main_v5) (V m c main_v8) (V m c main_v9) :=
  (dats m 0 c).arrAt_eq_of_cover 4 _ (fun t _ => flushed_eq m c t) covered

end Cert.BinaryLinear

end
-- ==== Proof.Binarize.lean ====
/-
  The binarised weight, entry by entry.

  Both programs replace each weight `w` by its sign, and a sign of zero by one: `if sign w = 0 then 1 else sign w`.
  Whatever `w` is, the result is a real number (it is -1 or 1), since the sign of every extended real is -1, 0 or 1 and
  the pattern of `1.0` denotes the real number 1.
-/
import proofs.«108005_j91113436217710_2_alg».proof.Proof.Spec

noncomputable section

namespace Cert.BinaryLinear

open Idealize.ShloMosaic Cert.LibReal

/-- One weight binarised: its sign, with a zero sign replaced by one. -/
def binarize (w : EReal) : EReal :=
  Scalar.select (Ideal.cmp .oeq (Ideal.sign w) (Ideal.ofBits .f32 0x00000000#32)) (Ideal.ofBits .f32 0x3F800000#32) (Ideal.sign w)

/-- A binarised weight is a real number, whatever the weight. -/
theorem isR_binarize (w : EReal) : IsR (binarize w) := isR_select _ isR_one (isR_sign w)

end Cert.BinaryLinear

end
-- ==== Proof.Result.lean ====
/-
  The result both programs compute, and the step between their two spellings.

  `result` is the layer with the scale inside the sum: at `(b, s, o)`, `Σ_k x[b,s,k] · (binarize w[o,k] · scale[0]) + bias[o]`.
  The other spelling scales the finished product, `(Σ_k x[b,s,k] · binarize w[o,k]) · scale[0] + bias[o]`; when the
  activations and the scale are real numbers the two are equal (a binarised weight always is real).
-/
import proofs.«108005_j91113436217710_2_alg».proof.Proof.Binarize
import Idealize.ShloMosaic.Lib.ValueIdx

noncomputable section

open scoped BigOperators

namespace Cert.BinaryLinear

open Idealize.ShloMosaic Idealize.ShloMosaic.ValueIdx Cert.LibReal

/-- The binary linear layer of activations `[4, 2048, 4096]`, weight `[16384, 4096]`, scale `[1]` and bias `[16384]`. -/
def result (a0 : (⟨3, ![4, 2048, 4096]⟩ : Shape).Idx → EReal) (a1 : (⟨2, ![16384, 4096]⟩ : Shape).Idx → EReal)
    (a2 : (⟨1, ![1]⟩ : Shape).Idx → EReal) (a3 : (⟨1, ![16384]⟩ : Shape).Idx → EReal) :
    (⟨3, ![4, 2048, 16384]⟩ : Shape).Idx → EReal :=
  fun i => (∑ k : Fin 4096, a0 (ix3 (i 0) (i 1) k) * (binarize (a1 (ix2 (i 2) k)) * a2 (ix1 (0 : Fin 1)))) + a3 (ix1 (i 2))

/-- Scaling the finished product equals scaling every binarised weight first, for real activations and a real scale. -/
theorem scale_outside_eq (x : Fin 4096 → EReal) (w : Fin 4096 → EReal) (s b : EReal)
    (hx : ∀ k, IsR (x k)) (hs : IsR s) :
    (∑ k : Fin 4096, x k * binarize (w k)) * s + b = (∑ k : Fin 4096, x k * (binarize (w k) * s)) + b := by
  rw [sum_mul_scale Finset.univ x (fun k => binarize (w k)) s hx (fun k => isR_binarize (w k)) hs]

end Cert.BinaryLinear

end
-- ==== Proof.LibFlatten.lean ====
/-
  Merging and splitting the two leading axes of a rank-3 array, read at an index.

  A row-major `[a, b, c]` array and the `[n, c]` array with `n = a · b` rows have the same entries in the same order: row
  `p · b + q` of the flat array is row `(p, q)` of the other. Both directions of the cast are read at coordinates; the flat
  row is given as an index `pq : Fin n` with the equation `pq = p · b + q`, so that the lemmas apply whether the extent `n`
  is written as a product or as a literal.
-/
import Idealize.ShloMosaic.Lib.ValueIdx
import Idealize.ShloMosaic.Lib.Pipeline.Value

noncomputable section

namespace Cert.LibFlatten

open Idealize.ShloMosaic Idealize.ShloMosaic.ValueIdx

variable {α : Type}

/-- An `[a, b, c]` array cast to `[n, c]` reads, at `(p · b + q, r)`, the operand at `(p, q, r)`. -/
theorem shapeCast_abc_nc_apply {a b c n : ℕ} (x : (⟨3, ![a, b, c]⟩ : Shape).Idx → α)
    (h : (⟨3, ![a, b, c]⟩ : Shape).ShapeCasts ⟨2, ![n, c]⟩) (p : Fin a) (q : Fin b) (r : Fin c) (pq : Fin n)
    (hpq : pq.val = p.val * b + q.val) : shapeCast ⟨2, ![n, c]⟩ x h (ix2 pq r) = x (ix3 p q r) :=
  shapeCast_apply x h _ _ (by
    rw [Shape.rowMajor_val_three, Shape.rowMajor_val_two]
    show (p.val * b + q.val) * c + r.val = pq.val * c + r.val
    rw [hpq])

/-- An `[n, c]` array cast to `[a, b, c]` reads, at `(p, q, r)`, the operand at `(p · b + q, r)`. -/
theorem shapeCast_nc_abc_apply {a b c n : ℕ} (y : (⟨2, ![n, c]⟩ : Shape).Idx → α)
    (h : (⟨2, ![n, c]⟩ : Shape).ShapeCasts ⟨3, ![a, b, c]⟩) (p : Fin a) (q : Fin b) (r : Fin c) (pq : Fin n)
    (hpq : pq.val = p.val * b + q.val) : shapeCast ⟨3, ![a, b, c]⟩ y h (ix3 p q r) = y (ix2 pq r) :=
  shapeCast_apply y h _ _ (by
    rw [Shape.rowMajor_val_two, Shape.rowMajor_val_three]
    show pq.val * c + r.val = (p.val * b + q.val) * c + r.val
    rw [hpq])

end Cert.LibFlatten

end
-- ==== Proof.KernelRun.lean ====
/-
  The kernel program's result as a function of its arguments.

  Before the region the host binarises the weight, and reshapes the activations `[4, 2048, 4096]` to `[8192, 4096]`
  (row `2048 b + s` is row `(b, s)`), the bias to a row `[1, 16384]` and the scale to `[1, 1]`; the changes of float
  format in between are the identity on the extended reals. The region leaves `layer` of those four arrays; after
  it the host reshapes `[8192, 16384]` back to `[4, 2048, 16384]`. So the result at `(b, s, o)` is
  `(Σ_k x[b,s,k] · binarize w[o,k]) · scale[0] + bias[o]`, which for real activations and a real scale is `result`.
-/
import proofs.«108005_j91113436217710_2_alg».proof.Proof.Gen.KernelIdeal.Frame
import proofs.«108005_j91113436217710_2_alg».proof.Proof.KernelArray
import proofs.«108005_j91113436217710_2_alg».proof.Proof.Result
import proofs.«108005_j91113436217710_2_alg».proof.Proof.LibFlatten
import Idealize.ShloMosaic.Lib.StableHlo.Run
import Idealize.ShloMosaic.Lib.ValueLayout
import Idealize.ShloMosaic.Lib.Pipeline.Value

set_option maxRecDepth 16384

noncomputable section

open scoped BigOperators

namespace Cert.BinaryLinear

open Idealize.ShloMosaic Idealize.ShloMosaic.TcCoe Idealize.ShloMosaic.ValueIdx Idealize.SL.Sem Idealize.ShloMosaic.StableHlo
open Cert.LibReal Cert.KernelIdeal Cert.KernelIdeal.Gen

variable (m : (ℓ : Loc nD τ sig) → Buf (Elt Ideal) ℓ) (ρ : Dev nD → PrngReg)

/-- The argument arrays on core `c`, as functions of an index: activations, weight, scale, bias. -/
abbrev argX (c : Dev nD) : S4x2048x4096.Idx → EReal := m ((c : Thread nD τ).loc main_arg0)
abbrev argW (c : Dev nD) : S16384x4096.Idx → EReal := m ((c : Thread nD τ).loc main_arg1)
abbrev argS (c : Dev nD) : S1.Idx → EReal := m ((c : Thread nD τ).loc main_arg2)
abbrev argB (c : Dev nD) : S16384.Idx → EReal := m ((c : Thread nD τ).loc main_arg3)

/-- The four arrays the region finds, likewise: flat activations, binarised weight, bias row, scale. -/
abbrev foundX (c : Dev nD) : S8192x4096.Idx → EReal := V m c main_v7
abbrev foundW (c : Dev nD) : S16384x4096.Idx → EReal := V m c main_v5
abbrev foundB (c : Dev nD) : S1x16384.Idx → EReal := V m c main_v8
abbrev foundS (c : Dev nD) : S1x1.Idx → EReal := V m c main_v9

/-- The activations the region finds: row `2048 p + q` of the flat array is row `(p, q)` of the argument. -/
theorem found_activations (c : Dev nD) (p : Fin 4) (q : Fin 2048) (k : Fin 4096) (r : Fin 8192)
    (hr : r.val = p.val * 2048 + q.val) :
    foundX m c (ix2 r k) = argX m c (ix3 p q k) := by
  have e : foundX m c
      = shapeCast S8192x4096 (truncf (F := Ideal) .bf16 (argX m c) bitsLt_bf16_f32) shapeCasts_S4x2048x4096_S8192x4096 := by
    dsimp only [foundX, Gen.V, Gen.V0]
    simp only [hostOps0, hostOps0_1, hostOps0_2, List.flatten_cons, List.flatten_nil, List.append_nil, List.cons_append,
      List.nil_append]
    after_results
    rfl
  exact (congrFun e (ix2 r k)).trans ((Cert.LibFlatten.shapeCast_abc_nc_apply _ _ p q k r hr).trans rfl)

/-- The weight the region finds is the argument's, binarised entry by entry. -/
theorem found_weight (c : Dev nD) (j : S16384x4096.Idx) :
    foundW m c j = binarize (argW m c j) := by
  have e : foundW m c = fun j => binarize (argW m c j) := by
    dsimp only [foundW, Gen.V, Gen.V0]
    simp only [hostOps0, hostOps0_1, hostOps0_2, List.flatten_cons, List.flatten_nil, List.append_nil, List.cons_append,
      List.nil_append]
    after_results
    rfl
  exact congrFun e j

/-- The bias row the region finds holds the argument's entries. -/
theorem found_bias (c : Dev nD) (o : Fin 16384) :
    foundB m c (ix2 (0 : Fin 1) o) = argB m c (ix1 o) := by
  have e : foundB m c = shapeCast S1x16384 (argB m c) shapeCasts_S16384_S1x16384 := by
    dsimp only [foundB, Gen.V, Gen.V0]
    simp only [hostOps0, hostOps0_1, hostOps0_2, List.flatten_cons, List.flatten_nil, List.append_nil, List.cons_append,
      List.nil_append]
    after_results
    rfl
  exact (congrFun e (ix2 (0 : Fin 1) o)).trans (shapeCast_a_1a_apply _ _ (0 : Fin 1) o)

/-- The one-entry scale the region finds is the argument's entry. -/
theorem found_scale (c : Dev nD) :
    foundS m c (ix2 (0 : Fin 1) (0 : Fin 1)) = argS m c (ix1 (0 : Fin 1)) := by
  have e : foundS m c = shapeCast S1x1 (argS m c) shapeCasts_S1_S1x1 := by
    dsimp only [foundS, Gen.V, Gen.V0]
    simp only [hostOps0, hostOps0_1, hostOps0_2, List.flatten_cons, List.flatten_nil, List.append_nil, List.cons_append,
      List.nil_append]
    after_results
    rfl
  exact (congrFun e (ix2 (0 : Fin 1) (0 : Fin 1))).trans (shapeCast_a_1a_apply _ _ (0 : Fin 1) (0 : Fin 1))

/-- After the region the result array is reshaped: entry `(b, s, o)` is entry `(2048 b + s, o)` of what the region left. -/
theorem tail_apply (c : Dev nD) (b : Fin 4) (s : Fin 2048) (o : Fin 16384) (r : Fin 8192)
    (hr : r.val = b.val * 2048 + s.val) :
    Pipeline.afterTail₀ cfgs (dats m) 0 (V0 m) [hostOps1] c main_v11 (ix3 b s o) = (dats m 0 c).arrAt 4 cfg0.N (ix2 r o) := by
  have e : (Pipeline.afterTail₀ cfgs (dats m) 0 (V0 m) [hostOps1] c main_v11 : S4x2048x16384.Idx → EReal)
      = shapeCast S4x2048x16384 ((dats m 0 c).arrAt 4 cfg0.N) shapeCasts_S8192x16384_S4x2048x16384 := by
    unfold Pipeline.afterTail₀
    show StableHlo.after hostOps1 _ (Proc.devRef .tc main_v11) = _
    after_results
    exact congrArg (fun A => shapeCast S4x2048x16384 A shapeCasts_S8192x16384_S4x2048x16384)
      (Pipeline.withArrays_arr spec0 launch0.win.arr_inj c (V0 m c) (fun w => (dats m 0 c).arrAt w cfg0.N) 4)
  exact (congrFun e (ix3 b s o)).trans (Cert.LibFlatten.shapeCast_nc_abc_apply _ _ b s o r hr)

/-- The kernel program's result at `(b, s, o)`, the scale applied to the finished product. -/
theorem kernel_apply (c : Dev nD) (b : Fin 4) (s : Fin 2048) (o : Fin 16384) :
    Pipeline.afterTail₀ cfgs (dats m) 0 (V0 m) [hostOps1] c main_v11 (ix3 b s o)
      = (∑ k : Fin 4096, argX m c (ix3 b s k) * binarize (argW m c (ix2 o k))) * argS m c (ix1 (0 : Fin 1))
        + argB m c (ix1 o) := by
  have hb : b.val < 4 := b.isLt
  have hs : s.val < 2048 := s.isLt
  obtain ⟨r, hr⟩ : ∃ r : Fin 8192, r.val = b.val * 2048 + s.val := ⟨⟨b.val * 2048 + s.val, by omega⟩, rfl⟩
  refine (tail_apply m c b s o r hr).trans ?_
  refine (congrFun (result_array m c) (ix2 r o)).trans ?_
  show (∑ k : Fin 4096, foundX m c (ix2 r k) * foundW m c (ix2 o k)) * foundS m c (ix2 (0 : Fin 1) (0 : Fin 1))
      + foundB m c (ix2 (0 : Fin 1) o) = _
  rw [found_scale, found_bias]
  refine congrArg (fun z => z * argS m c (ix1 (0 : Fin 1)) + argB m c (ix1 o)) (Finset.sum_congr rfl fun k _ => ?_)
  rw [found_activations m c b s k r hr, found_weight]

/-- For real activations and a real scale the kernel program's result is `result` of its arguments. -/
theorem kernel_result (c : Dev nD) (hx : ∀ i, IsR (argX m c i)) (hs : ∀ i, IsR (argS m c i)) :
    Pipeline.afterTail₀ cfgs (dats m) 0 (V0 m) [hostOps1] c main_v11
      = result (argX m c) (argW m c) (argS m c) (argB m c) := by
  funext i
  obtain ⟨b, s, o, rfl⟩ : ∃ (b : Fin 4) (s : Fin 2048) (o : Fin 16384), i = ix3 b s o := ⟨i 0, i 1, i 2, eq_ix3 i⟩
  refine (kernel_apply m c b s o).trans ?_
  exact scale_outside_eq (fun k => argX m c (ix3 b s k)) (fun k => argW m c (ix2 o k)) (argS m c (ix1 (0 : Fin 1)))
    (argB m c (ix1 o)) (fun k => hx _) (hs _)

/-- The kernel program's run, read: every weakly fair execution ends with the result buffer at `result` of the
    arguments and the arguments unchanged, when the activations and the scale are real. -/
theorem kernel_run (hx : ∀ (c : Dev nD) i, IsR (argX m c i)) (hs : ∀ (c : Dev nD) i, IsR (argS m c i)) :
    θ_run defs (onTc (τ := τ) (main (F := Ideal))) ⟨m, fun _ => 0, ρ⟩ (fun r => ∀ c : Dev nD,
      r.2.mem ((c.tc : Thread nD τ).loc main_v11) = result (m ((c.tc : Thread nD τ).loc main_arg0))
          (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨((h c).2 main_v11 (Pipeline.mem_restRefs_of main_v11 (by decide) (by decide))).trans (kernel_result m c (hx c) (hs c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.BinaryLinear

end
-- ==== Proof.RefRead.lean ====
/-
  The reference at one entry.

  The reference binarises the weight, multiplies every binarised entry by the scale, contracts the activations
  `[4, 2048, 4096]` with that scaled weight `[16384, 4096]` over the depth, and adds the bias along the last axis.
  At `(b, s, o)` its result is `Σ_k x[b,s,k] · (binarize w[o,k] · scale[0]) + bias[o]`.
-/
import proofs.«108005_j91113436217710_2_alg».proof.Proof.Gen.ReferenceIdeal.Read
import proofs.«108005_j91113436217710_2_alg».proof.Proof.Binarize
import Idealize.ShloMosaic.Lib.ValueIdx

noncomputable section

open scoped BigOperators

namespace Cert.BinaryLinear

open Idealize.ShloMosaic Idealize.ShloMosaic.ValueIdx Cert.ReferenceIdeal Cert.ReferenceIdeal.Read

/-- The contraction reads the activations at `(b, s, k)` -/
theorem act_index (b : Fin 4) (s : Fin 2048) (o : Fin 16384) (k : Fin 4096) : lidx_main_v8 (ix3 b s o) k = ix3 b s k :=
  funext fun a => Fin.ext (by match a with | ⟨0, _⟩ => rfl | ⟨1, _⟩ => rfl | ⟨2, _⟩ => rfl)

/-- and the scaled weight at `(o, k)`. -/
theorem weight_index (b : Fin 4) (s : Fin 2048) (o : Fin 16384) (k : Fin 4096) : ridx_main_v8 (ix3 b s o) k = ix2 o k :=
  funext fun a => Fin.ext (by match a with | ⟨0, _⟩ => rfl | ⟨1, _⟩ => rfl)

/-- The scale, broadcast over the weight's shape, is read at its one entry. -/
theorem scale_index (j : S16384x4096.Idx) : idx_main_v5 (idx_main_v6 j) = ix1 (0 : Fin 1) :=
  funext fun a => Fin.ext (by match a with | ⟨0, _⟩ => rfl)

/-- The bias, broadcast over the leading axes, is read at the last coordinate. -/
theorem bias_index (b : Fin 4) (s : Fin 2048) (o : Fin 16384) : idx_main_v9 (idx_main_v10 (ix3 b s o)) = ix1 o :=
  funext fun a => Fin.ext (by match a with | ⟨0, _⟩ => rfl)

/-- The reference's result at `(b, s, o)`. -/
theorem reference_apply (x0 : FVec Ideal S4x2048x4096 .f32) (x1 : FVec Ideal S16384x4096 .f32) (x2 : FVec Ideal S1 .f32)
    (x3 : FVec Ideal S16384 .f32) (b : Fin 4) (s : Fin 2048) (o : Fin 16384) :
    val_main_v11 (F := Ideal) x0 x1 x2 x3 (ix3 b s o)
      = (∑ k : Fin 4096, x0 (ix3 b s k) * (binarize (x1 (ix2 o k)) * x2 (ix1 (0 : Fin 1)))) + x3 (ix1 o) := by
  rw [val_main_v11_apply, val_main_v8_apply, val_main_v10_apply, val_main_v9_apply, bias_index]
  simp only [act_index, weight_index, val_main_v7_apply, val_main_v6_apply, val_main_v5_apply, scale_index,
    val_main_v4_apply, val_main_v2_apply, val_main_v0_apply, val_main_v1_apply, val_main_v3_apply, val_main_cst_apply,
    val_main_cst_0_apply]
  rfl

end Cert.BinaryLinear

end
-- ==== Proof.RefResult.lean ====
/-
  The reference's result is `result` of its arguments: entry by entry it is the layer with the scale inside the sum.
-/
import proofs.«108005_j91113436217710_2_alg».proof.Proof.RefRead
import proofs.«108005_j91113436217710_2_alg».proof.Proof.Result

noncomputable section

open scoped BigOperators

namespace Cert.BinaryLinear

open Idealize.ShloMosaic Idealize.ShloMosaic.ValueIdx Cert.ReferenceIdeal Cert.ReferenceIdeal.Read

theorem reference_result (x0 : FVec Ideal S4x2048x4096 .f32) (x1 : FVec Ideal S16384x4096 .f32) (x2 : FVec Ideal S1 .f32)
    (x3 : FVec Ideal S16384 .f32) : val_main_v11 (F := Ideal) x0 x1 x2 x3 = result x0 x1 x2 x3 := by
  funext i
  obtain ⟨b, s, o, rfl⟩ : ∃ (b : Fin 4) (s : Fin 2048) (o : Fin 16384), i = ix3 b s o := ⟨i 0, i 1, i 2, eq_ix3 i⟩
  rw [reference_apply]
  rfl

end Cert.BinaryLinear

end
-- ==== Proof.LibColumn.lean ====
/-
  Layout operations of "keepdims" row statistics, read at an index given by coordinates.

  A row statistic of an `[a, b]` array (a sum, a mean, a variance along the second axis) lives in an `[a]` array,
  is given a unit column axis, `[a, 1]`, and is spread back over the row, `[a, b]`; a per-feature parameter `[b]` is
  given a unit row axis `[1, b]` and spread over the rows. Each of these steps, in a kernel's vector spelling
  (`shapeCast`, `broadcastTo`) and in the host's (`broadcastInDim` with explicit axes), reads at `(p, c)` the
  operand at the evident coordinates. The lemmas are stated over indices built by `ix1` / `ix2` at every extent, so
  they apply to a printed operation by unification.
-/
import Idealize.ShloMosaic.Lib.ValueIdx
import Idealize.ShloMosaic.Lib.ValueLayout
import Idealize.ShloMosaic.Lib.Pipeline.Value

namespace Cert.LibColumn

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread over `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's `[a] → [a, 1]` along axis 0 reads, at `(i, u)`, the operand at `i`. -/
theorem broadcastInDim_a_a1_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply ![0] h x (ix2 i u) (ix1 i) fun ax => ?_
  match ax with
  | ⟨0, _⟩ =>
    show i.val = if a = 1 then 0 else i.val
    split
    · have := i.isLt; omega
    · rfl

/-- The host's `[a, 1] → [a, b]` along axes (0, 1) reads, at `(p, c)`, the column's entry of row `p`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- The host's `[b] → [1, b]` along axis 1 reads, at `(u, c)`, the operand at `c`. -/
theorem broadcastInDim_b_1b_apply {b : ℕ} (x : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h x (ix2 u c) = x (ix1 c) := by
  refine broadcastInDim_apply ![1] h x (ix2 u c) (ix1 c) fun ax => ?_
  match ax with
  | ⟨0, _⟩ =>
    show c.val = if b = 1 then 0 else c.val
    split
    · have := c.isLt; omega
    · rfl

/-- The host's `[1, b] → [a, b]` along axes (0, 1) reads, at `(p, c)`, the one row at `c`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- The host's spread of a rank-0 value over any shape reads, everywhere, that value. -/
theorem broadcastInDim_scalar_apply {t : Shape} (x : (⟨0, ![]⟩ : Shape).Idx → α)
    (h : (⟨0, ![]⟩ : Shape).BroadcastsInDim t ![]) (j : t.Idx) :
    broadcastInDim t ![] h x j = x ix0 :=
  broadcastInDim_apply ![] h x j ix0 fun ax => ax.elim0

end Cert.LibColumn
-- ==== Proof.LibFinite.lean ====
/-
  A printed finiteness precondition read back. `jnp.all(|x| < +∞)` prints as a reduction by `and`, from the constant 1, of
  the comparison of `|x|` with the broadcast pattern of `+∞`; when that reduction is 1, every entry of `x` is a real
  number: an extended real whose absolute value `max a (-a)` is below `⊤` is neither infinity.
-/
import Idealize.ShloMosaic.Lib.ReduceAll
import Idealize.ShloMosaic.Lib.ValueIdx
import Idealize.ShloMosaic.PureOps.Ideal.Laws
import proofs.«108005_j91113436217710_2_alg».proof.Proof.LibReal
import proofs.«108005_j91113436217710_2_alg».proof.Proof.LibColumn

noncomputable section

namespace Cert.LibFinite

open Idealize.ShloMosaic Cert.LibReal

/-- The shape of rank zero has one index. -/
instance : Subsingleton (⟨0, ![]⟩ : Shape).Idx := ⟨fun _ _ => funext fun d => d.elim0⟩

/-- An extended real whose absolute value compares below the pattern of `+∞` is a real number. -/
theorem isR_of_abs_lt_inf (a : EReal)
    (h : Ideal.cmp .olt (max a (-a)) (Ideal.ofBits .f32 0x7F800000#32) = 1#1) : IsR a := by
  have htop : Ideal.ofBits .f32 0x7F800000#32 = ⊤ := by simp [Ideal.ofBits, Ideal.ieee]
  rw [htop] at h
  unfold Ideal.cmp at h
  have hlt : max a (-a) < ⊤ := by
    by_contra hn
    simp [hn] at h
  rw [max_lt_iff] at hlt
  induction a using EReal.rec with
  | bot => simp at hlt
  | coe r => exact ⟨r, rfl⟩
  | top => simp at hlt

/-- `jnp.all(|x| < +∞)` being 1 makes every entry of `x` a real number. -/
theorem isR_of_all_finite {s : Shape} {axes : List (Fin s.rank)} (x : FVec Ideal s .f32)
    (bc : (⟨0, ![]⟩ : Shape).BroadcastsInDim s (![] : Fin 0 → Fin s.rank)) (h : s.ReducesTo axes ⟨0, ![]⟩)
    (hu : 0 < (⟨0, ![]⟩ : Shape).numel) (j : (⟨0, ![]⟩ : Shape).Idx)
    (e : Host.reduce IntOp.andi
        (cmpf .olt (Host.absf x) (broadcastInDim s ![] bc (constant (F := Ideal) ⟨0, ![]⟩ .f32 0x7F800000#32)))
        (constantI ⟨0, ![]⟩ 1 1#1) h hu j = 1#1)
    (i : s.Idx) : IsR (x i) := by
  have hi := Host.reduce_andi_all _ _ h hu j e i
  rw [ValueIdx.cmpf_apply, Cert.LibColumn.broadcastInDim_scalar_apply] at hi
  exact isR_of_abs_lt_inf (x i) hi

end Cert.LibFinite

end
-- ==== Proof.Finite.lean ====
/-
  The precondition read back: every input entry is a real number.

  The precondition is the conjunction of four tests `all(|a| < +∞)`, one per input array. When it evaluates to 1, each
  test does, and then every entry of each array is neither infinity.
-/
import proofs.«108005_j91113436217710_2_alg».proof.Pre_finite_inputs
import proofs.«108005_j91113436217710_2_alg».proof.Proof.Gen.Pre_finite_inputs
import proofs.«108005_j91113436217710_2_alg».proof.Proof.LibFinite
import Idealize.ShloMosaic.Lib.Affine

noncomputable section

namespace Cert.BinaryLinear

open Idealize.ShloMosaic Cert.LibReal Cert.Pre_finite_inputs

/-- If the finiteness test of the four arrays is 1, all their entries are real numbers. -/
theorem real_inputs (a0 : FVec Ideal S4x2048x4096 .f32) (a1 : FVec Ideal S16384x4096 .f32) (a2 : FVec Ideal S1 .f32)
    (a3 : FVec Ideal S16384 .f32) (h : Cert.Pre_finite_inputs.fn (F := Ideal) a0 a1 a2 a3 = fun _ => 1#1) :
    (∀ i, IsR (a0 i)) ∧ (∀ i, IsR (a1 i)) ∧ (∀ i, IsR (a2 i)) ∧ (∀ i, IsR (a3 i)) := by
  have h0 := congrFun h ValueIdx.ix0
  dsimp only [Cert.Pre_finite_inputs.fn, Cert.Pre_finite_inputs.fn_part1] at h0
  obtain ⟨h012, h3⟩ := IntOp.andi_eq_one.1 h0
  obtain ⟨h01, h2⟩ := IntOp.andi_eq_one.1 h012
  obtain ⟨h0', h1⟩ := IntOp.andi_eq_one.1 h01
  exact ⟨fun i => Cert.LibFinite.isR_of_all_finite a0 _ _ _ _ h0' i,
    fun i => Cert.LibFinite.isR_of_all_finite a1 _ _ _ _ h1 i,
    fun i => Cert.LibFinite.isR_of_all_finite a2 _ _ _ _ h2 i,
    fun i => Cert.LibFinite.isR_of_all_finite a3 _ _ _ _ h3 i⟩

end Cert.BinaryLinear

end
-- ==== Proof.lean ====
/-
  A binary linear layer: the kernel against its reference, on the extended reals.

  Both programs binarise the weight `w` [16384, 4096] entry by entry (its sign, a zero sign replaced by one) and
  compute, for activations `x` [4, 2048, 4096], a one-entry scale and a bias [16384],
      out[b, s, o] = Σ_k x[b, s, k] · binarize w[o, k] · scale + bias[o].
  The reference multiplies every binarised weight by the scale and then contracts. The kernel flattens the activations
  to [8192, 4096], and on an 8 × 32 grid multiplies a block of 1024 activation rows by the transpose of a block of 512
  binarised weight rows, scales the finished product and adds the bias; the 256 blocks tile the [8192, 16384] result,
  which is reshaped back. The changes of float format are the identity on the extended reals.

  The two results differ by where the scale stands, outside or inside the sum over `k`: equal by distributivity, which
  on the extended reals needs real numbers. The precondition makes every input entry real, and a binarised weight is
  real whatever the weight. Nothing was rewritten when the kernel was idealised, so there is nothing to preserve.
-/
import proofs.«108005_j91113436217710_2_alg».proof.Defs
import proofs.«108005_j91113436217710_2_alg».proof.Proof.Gen.Kernel
import proofs.«108005_j91113436217710_2_alg».proof.Proof.Gen.Kernel.Skeleton
import proofs.«108005_j91113436217710_2_alg».proof.Proof.Gen.Kernel.Launch
import proofs.«108005_j91113436217710_2_alg».proof.Proof.Gen.Kernel.Points
import proofs.«108005_j91113436217710_2_alg».proof.Proof.Gen.Kernel.Frame
import proofs.«108005_j91113436217710_2_alg».proof.Proof.Gen.KernelIdeal
import proofs.«108005_j91113436217710_2_alg».proof.Proof.Gen.KernelIdeal.Skeleton
import proofs.«108005_j91113436217710_2_alg».proof.Proof.Gen.KernelIdeal.Launch
import proofs.«108005_j91113436217710_2_alg».proof.Proof.Gen.KernelIdeal.Points
import proofs.«108005_j91113436217710_2_alg».proof.Proof.Gen.KernelIdeal.Frame
import proofs.«108005_j91113436217710_2_alg».proof.Proof.Gen.ReferenceIdeal
import proofs.«108005_j91113436217710_2_alg».proof.Proof.Gen.ReferenceIdeal.Run
import proofs.«108005_j91113436217710_2_alg».proof.Proof.Gen.ReferenceIdeal.Read
import proofs.«108005_j91113436217710_2_alg».proof.Proof.Gen.Pre_finite_inputs
import proofs.«108005_j91113436217710_2_alg».proof.Proof.KernelRun
import proofs.«108005_j91113436217710_2_alg».proof.Proof.RefResult
import proofs.«108005_j91113436217710_2_alg».proof.Proof.Finite
import Idealize.ShloMosaic.Adequacy
import Idealize.ShloMosaic.Init

noncomputable section

namespace Cert.Proof

open Idealize.ShloMosaic Idealize.ShloMosaic.TcCoe Idealize.SL.Sem

/-- The kernel program terminates without a fault and leaves its arguments unchanged. -/
theorem frame_kernel : Cert.frame_Kernel := fun m ρ _ => Cert.Kernel.Gen.frame m ρ

/-- So does the kernel program read on the extended reals. -/
theorem frame_kernel_ideal : Cert.frame_KernelIdeal := fun m ρ _ => Cert.KernelIdeal.Gen.frame m ρ

/-- The reference is a straight line of host operations: its run, with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- From memories that agree on the arguments, all of them real by the precondition, both programs end with
    `result` of the arguments in their result buffers. -/
theorem algebraic : Cert.algebraic_KernelIdeal_ReferenceIdeal := by
  intro m ρ m' ρ' hpre hagree
  have hfin := fun c => Cert.BinaryLinear.real_inputs _ _ _ _ (hpre c)
  refine ⟨fun c => Cert.BinaryLinear.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.BinaryLinear.kernel_run m ρ (fun c => (hfin c).1) (fun c => (hfin c).2.2.1), ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v11_eq, Cert.BinaryLinear.reference_result,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
